-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x32x64x63 : Shape := ⟨4, ![32, 32, 64, 63]⟩
abbrev S_ : Shape := ⟨0, ![]⟩

class Facts : Prop where
  bcast_S_S32x32x64x63 : S_.BroadcastsInDim S32x32x64x63 (![] : Fin 0 → Fin S32x32x64x63.rank)
  reducesTo_S32x32x64x63_S_d0_1_2_3 : S32x32x64x63.ReducesTo [0, 1, 2, 3] S_
  h_S_ : 0 < S_.numel

variable [Facts]

def fn {F : FTy → Type} [FloatOps F] (main_arg0 : FVec F S32x32x64x63 .f32) : IVec S_ 1 :=
  let main_v0 : FVec F S32x32x64x63 .f32 := Host.absf main_arg0
  let main_cst : FVec F S_ .f32 := constant S_ .f32 0x7F800000#32
  let main_v1 : FVec F S32x32x64x63 .f32 := broadcastInDim S32x32x64x63 ![] bcast_S_S32x32x64x63 main_cst
  let main_v2 : IVec S32x32x64x63 1 := cmpf .olt main_v0 main_v1
  let main_c : IVec S_ 1 := constantI S_ 1 1#1
  let main_v3 : IVec S_ 1 := (fun x v => Host.reduce IntOp.andi x v reducesTo_S32x32x64x63_S_d0_1_2_3 h_S_) main_v2 main_c
  main_v3
-- ==== Kernel.lean ====
abbrev S32x32x64x63 : Shape := ⟨4, ![32, 32, 64, 63]⟩
abbrev S1x1 : Shape := ⟨2, ![1, 1]⟩
abbrev S32x8x64x63 : Shape := ⟨4, ![32, 8, 64, 63]⟩
abbrev S1x8x64x63 : Shape := ⟨4, ![1, 8, 64, 63]⟩
abbrev S8x64x63 : Shape := ⟨3, ![8, 64, 63]⟩
abbrev S32x8x64 : Shape := ⟨3, ![32, 8, 64]⟩
abbrev S32x8 : Shape := ⟨2, ![32, 8]⟩
abbrev S32 : Shape := ⟨1, ![32]⟩
abbrev S32x1 : Shape := ⟨2, ![32, 1]⟩
abbrev S1 : Shape := ⟨1, ![1]⟩
abbrev S_ : Shape := ⟨0, ![]⟩

abbrev nBuf : Space → Nat
  | .hbm => 5
  | .vmem => 4
  | .smem => 0
  | _ => 0

abbrev bufTy : (tb : Table) → Fin (tcTables nBuf tb) → BufTy
  | .hbm, ⟨0, _⟩ => ⟨S32x32x64x63, .f32⟩
  | .hbm, ⟨1, _⟩ => ⟨S1x1, .f32⟩
  | .hbm, ⟨2, _⟩ => ⟨S_, .f32⟩
  | .hbm, ⟨3, _⟩ => ⟨S_, .f32⟩
  | .hbm, ⟨4, _⟩ => ⟨S_, .f32⟩
  | .local _ .vmem, ⟨0, _⟩ => ⟨S32x8x64x63, .f32⟩
  | .local _ .vmem, ⟨1, _⟩ => ⟨S32x8x64x63, .f32⟩
  | .local _ .vmem, ⟨2, _⟩ => ⟨S1x1, .f32⟩
  | .local _ .vmem, ⟨3, _⟩ => ⟨S1x1, .f32⟩
  | _, _ => ⟨S32x32x64x63, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32_201 : BitVec 32 := 3#32
  let v682 : BitVec 1 := Scalar.cmpi .eq arg0 c3_i32_201
  let v683 : BitVec 32 := Scalar.extui v682
  let c0_i32_202 : BitVec 32 := 0#32
  let v684 : BitVec 1 := Scalar.cmpi .ne v683 c0_i32_202
  v684

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x8x64x63 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S32x8x64x63_S32x8x64x63_0_0_0_0 : ∀ a, (![0, 0, 0, 0] : Fin 4 → Nat) a + S32x8x64x63.size a ≤ S32x8x64x63.size a
  h_S32x8x64x63 : 0 < S32x8x64x63.numel
  slices_S32x8x64x63_o0_0_0_0_S1x8x64x63 : S32x8x64x63.Slices ![0, 0, 0, 0] S1x8x64x63
  shapeCasts_S1x8x64x63_S8x64x63 : S1x8x64x63.ShapeCasts S8x64x63
  shapeCasts_S8x64x63_S1x8x64x63 : S8x64x63.ShapeCasts S1x8x64x63
  broadcasts_S1x8x64x63_S32x8x64x63 : S1x8x64x63.Broadcasts S32x8x64x63
  reduces_S32x8x64x63_S32x8x64 : S32x8x64x63.Reduces [3] S32x8x64
  iota_S32x8x64_d0_w32 : S32x8x64.Iotas .tc 32 [0]
  reduces_S32x8x64_S32x8 : S32x8x64.Reduces [2] S32x8
  reduces_S32x8_S32 : S32x8.Reduces [1] S32
  shapeCasts_S32_S32x1 : S32.ShapeCasts S32x1
  reduces_S32x1_S1 : S32x1.Reduces [0] S1
  shapeCasts_S1_S1x1 : S1.ShapeCasts S1x1
  slices_S32x8x64x63_o1_0_0_0_S1x8x64x63 : S32x8x64x63.Slices ![1, 0, 0, 0] S1x8x64x63
  slices_S32x8x64x63_o2_0_0_0_S1x8x64x63 : S32x8x64x63.Slices ![2, 0, 0, 0] S1x8x64x63
  slices_S32x8x64x63_o3_0_0_0_S1x8x64x63 : S32x8x64x63.Slices ![3, 0, 0, 0] S1x8x64x63
  slices_S32x8x64x63_o4_0_0_0_S1x8x64x63 : S32x8x64x63.Slices ![4, 0, 0, 0] S1x8x64x63
  slices_S32x8x64x63_o5_0_0_0_S1x8x64x63 : S32x8x64x63.Slices ![5, 0, 0, 0] S1x8x64x63
  slices_S32x8x64x63_o6_0_0_0_S1x8x64x63 : S32x8x64x63.Slices ![6, 0, 0, 0] S1x8x64x63
  slices_S32x8x64x63_o7_0_0_0_S1x8x64x63 : S32x8x64x63.Slices ![7, 0, 0, 0] S1x8x64x63
  slices_S32x8x64x63_o8_0_0_0_S1x8x64x63 : S32x8x64x63.Slices ![8, 0, 0, 0] S1x8x64x63
  slices_S32x8x64x63_o9_0_0_0_S1x8x64x63 : S32x8x64x63.Slices ![9, 0, 0, 0] S1x8x64x63
  slices_S32x8x64x63_o10_0_0_0_S1x8x64x63 : S32x8x64x63.Slices ![10, 0, 0, 0] S1x8x64x63
  slices_S32x8x64x63_o11_0_0_0_S1x8x64x63 : S32x8x64x63.Slices ![11, 0, 0, 0] S1x8x64x63
  slices_S32x8x64x63_o12_0_0_0_S1x8x64x63 : S32x8x64x63.Slices ![12, 0, 0, 0] S1x8x64x63
  slices_S32x8x64x63_o13_0_0_0_S1x8x64x63 : S32x8x64x63.Slices ![13, 0, 0, 0] S1x8x64x63
  slices_S32x8x64x63_o14_0_0_0_S1x8x64x63 : S32x8x64x63.Slices ![14, 0, 0, 0] S1x8x64x63
  slices_S32x8x64x63_o15_0_0_0_S1x8x64x63 : S32x8x64x63.Slices ![15, 0, 0, 0] S1x8x64x63
  slices_S32x8x64x63_o16_0_0_0_S1x8x64x63 : S32x8x64x63.Slices ![16, 0, 0, 0] S1x8x64x63
  slices_S32x8x64x63_o17_0_0_0_S1x8x64x63 : S32x8x64x63.Slices ![17, 0, 0, 0] S1x8x64x63
  slices_S32x8x64x63_o18_0_0_0_S1x8x64x63 : S32x8x64x63.Slices ![18, 0, 0, 0] S1x8x64x63
  slices_S32x8x64x63_o19_0_0_0_S1x8x64x63 : S32x8x64x63.Slices ![19, 0, 0, 0] S1x8x64x63
  slices_S32x8x64x63_o20_0_0_0_S1x8x64x63 : S32x8x64x63.Slices ![20, 0, 0, 0] S1x8x64x63
  slices_S32x8x64x63_o21_0_0_0_S1x8x64x63 : S32x8x64x63.Slices ![21, 0, 0, 0] S1x8x64x63
  slices_S32x8x64x63_o22_0_0_0_S1x8x64x63 : S32x8x64x63.Slices ![22, 0, 0, 0] S1x8x64x63
  slices_S32x8x64x63_o23_0_0_0_S1x8x64x63 : S32x8x64x63.Slices ![23, 0, 0, 0] S1x8x64x63
  slices_S32x8x64x63_o24_0_0_0_S1x8x64x63 : S32x8x64x63.Slices ![24, 0, 0, 0] S1x8x64x63
  slices_S32x8x64x63_o25_0_0_0_S1x8x64x63 : S32x8x64x63.Slices ![25, 0, 0, 0] S1x8x64x63
  slices_S32x8x64x63_o26_0_0_0_S1x8x64x63 : S32x8x64x63.Slices ![26, 0, 0, 0] S1x8x64x63
  slices_S32x8x64x63_o27_0_0_0_S1x8x64x63 : S32x8x64x63.Slices ![27, 0, 0, 0] S1x8x64x63
  slices_S32x8x64x63_o28_0_0_0_S1x8x64x63 : S32x8x64x63.Slices ![28, 0, 0, 0] S1x8x64x63
  slices_S32x8x64x63_o29_0_0_0_S1x8x64x63 : S32x8x64x63.Slices ![29, 0, 0, 0] S1x8x64x63
  slices_S32x8x64x63_o30_0_0_0_S1x8x64x63 : S32x8x64x63.Slices ![30, 0, 0, 0] S1x8x64x63
  slices_S32x8x64x63_o31_0_0_0_S1x8x64x63 : S32x8x64x63.Slices ![31, 0, 0, 0] S1x8x64x63
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x8x64x63.size a ≤ S32x32x64x63.size a
  hwx0_0 : ∀ i : grid0.Coords, EltTy.bits .f32 = 32 ∨ (Rect.block (s := S32x32x64x63) S32x8x64x63.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)

variable [Facts₀]

abbrev win0_0 : Pipeline.Window sig grid0 :=
  Pipeline.Window.ofSpec (Memref.whole main_arg0) S32x8x64x63.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S32x32x64x63 : Shape := ⟨4, ![32, 32, 64, 63]⟩
abbrev S32x64x32x63 : Shape := ⟨4, ![32, 64, 32, 63]⟩
abbrev S2048x32x63 : Shape := ⟨3, ![2048, 32, 63]⟩
abbrev S2048x32x1x63 : Shape := ⟨4, ![2048, 32, 1, 63]⟩
abbrev S2048x1x32x63 : Shape := ⟨4, ![2048, 1, 32, 63]⟩
abbrev S2048x32x32x63 : Shape := ⟨4, ![2048, 32, 32, 63]⟩
abbrev S_ : Shape := ⟨0, ![]⟩
abbrev S2048x32x32 : Shape := ⟨3, ![2048, 32, 32]⟩
abbrev S32x32 : Shape := ⟨2, ![32, 32]⟩
abbrev S1x32x32 : Shape := ⟨3, ![1, 32, 32]⟩

abbrev nBuf : Space → Nat
  | .hbm => 34
  | .vmem => 0
  | .smem => 0
  | _ => 0

abbrev bufTy : (tb : Table) → Fin (tcTables nBuf tb) → BufTy
  | .hbm, ⟨0, _⟩ => ⟨S32x32x64x63, .f32⟩
  | .hbm, ⟨1, _⟩ => ⟨S32x64x32x63, .f32⟩
  | .hbm, ⟨2, _⟩ => ⟨S2048x32x63, .f32⟩
  | .hbm, ⟨3, _⟩ => ⟨S2048x32x1x63, .f32⟩
  | .hbm, ⟨4, _⟩ => ⟨S2048x1x32x63, .f32⟩
  | .hbm, ⟨5, _⟩ => ⟨S2048x32x32x63, .f32⟩
  | .hbm, ⟨6, _⟩ => ⟨S2048x32x32x63, .f32⟩
  | .hbm, ⟨7, _⟩ => ⟨S2048x32x32x63, .f32⟩
  | .hbm, ⟨8, _⟩ => ⟨S2048x32x32x63, .f32⟩
  | .hbm, ⟨9, _⟩ => ⟨S_, .f32⟩
  | .hbm, ⟨10, _⟩ => ⟨S2048x32x32, .f32⟩
  | .hbm, ⟨11, _⟩ => ⟨S_, .i1⟩
  | .hbm, ⟨12, _⟩ => ⟨S32x32, .i1⟩
  | .hbm, ⟨13, _⟩ => ⟨S32x32, .i32⟩
  | .hbm, ⟨14, _⟩ => ⟨S_, .i32⟩
  | .hbm, ⟨15, _⟩ => ⟨S32x32, .i32⟩
  | .hbm, ⟨16, _⟩ => ⟨S32x32, .i32⟩
  | .hbm, ⟨17, _⟩ => ⟨S32x32, .i32⟩
  | .hbm, ⟨18, _⟩ => ⟨S32x32, .i1⟩
  | .hbm, ⟨19, _⟩ => ⟨S_, .i1⟩
  | .hbm, ⟨20, _⟩ => ⟨S32x32, .i1⟩
  | .hbm, ⟨21, _⟩ => ⟨S32x32, .i1⟩
  | .hbm, ⟨22, _⟩ => ⟨S1x32x32, .i1⟩
  | .hbm, ⟨23, _⟩ => ⟨S2048x32x32, .f32⟩
  | .hbm, ⟨24, _⟩ => ⟨S2048x32x32, .f32⟩
  | .hbm, ⟨25, _⟩ => ⟨S_, .f32⟩
  | .hbm, ⟨26, _⟩ => ⟨S_, .f32⟩
  | .hbm, ⟨27, _⟩ => ⟨S2048x32x32, .i1⟩
  | .hbm, ⟨28, _⟩ => ⟨S2048x32x32, .f32⟩
  | .hbm, ⟨29, _⟩ => ⟨S2048x32x32, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | _, _ => ⟨S32x32x64x63, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_c : Ref sig .tc := ⟨.hbm, 11, rfl⟩
abbrev main_v9 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_0 : Ref sig .tc := ⟨.hbm, 19, rfl⟩
abbrev main_call0_v5 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩

abbrev nD : Nat := 1
abbrev τ : Topo := Topo.v7x

variable {F : FTy → Type} [FloatOps F]

class Facts₀ : Prop where
  transposes_S32x32x64x63_S32x64x32x63_1_2_0_3 : S32x32x64x63.Transposes [1, 2, 0, 3] S32x64x32x63
  shapeCasts_S32x64x32x63_S2048x32x63 : S32x64x32x63.ShapeCasts S2048x32x63
  bcast_S2048x32x63_S2048x32x1x63_0_1_3 : S2048x32x63.BroadcastsInDim S2048x32x1x63 (![0, 1, 3] : Fin 3 → Fin S2048x32x1x63.rank)
  bcast_S2048x32x63_S2048x1x32x63_0_2_3 : S2048x32x63.BroadcastsInDim S2048x1x32x63 (![0, 2, 3] : Fin 3 → Fin S2048x1x32x63.rank)
  bcast_S2048x32x1x63_S2048x32x32x63_0_1_2_3 : S2048x32x1x63.BroadcastsInDim S2048x32x32x63 (![0, 1, 2, 3] : Fin 4 → Fin S2048x32x32x63.rank)
  bcast_S2048x1x32x63_S2048x32x32x63_0_1_2_3 : S2048x1x32x63.BroadcastsInDim S2048x32x32x63 (![0, 1, 2, 3] : Fin 4 → Fin S2048x32x32x63.rank)
  reducesTo_S2048x32x32x63_S2048x32x32_d3 : S2048x32x32x63.ReducesTo [3] S2048x32x32
  h_S_ : 0 < S_.numel
  bcast_S_S32x32 : S_.BroadcastsInDim S32x32 (![] : Fin 0 → Fin S32x32.rank)
  bcast_S32x32_S1x32x32_1_2 : S32x32.BroadcastsInDim S1x32x32 (![1, 2] : Fin 2 → Fin S1x32x32.rank)
  bcast_S1x32x32_S2048x32x32_0_1_2 : S1x32x32.BroadcastsInDim S2048x32x32 (![0, 1, 2] : Fin 3 → Fin S2048x32x32.rank)
  bcast_S_S2048x32x32 : S_.BroadcastsInDim S2048x32x32 (![] : Fin 0 → Fin S2048x32x32.rank)
  reducesTo_S2048x32x32_S_d0_1_2 : S2048x32x32.ReducesTo [0, 1, 2] S_

variable [Facts₀]

class Facts : Prop extends Facts₀ where

variable [Facts]
-- ==== Proof.LibAbsDiff.lean ====
/-
  The distance of two extended reals does not depend on their order, with the absolute value read as
  `max x (-x)` and the difference as EReal's `x - y` (so `⊤ - ⊤ = ⊥`): `absDiff_comm a b :
  max (a - b) (-(a - b)) = max (b - a) (-(b - a))`, for every pair, the infinities included — when the arguments
  are equal both sides are one expression, and otherwise `-(a - b) = b - a` (`neg_sub_of_ne`), because the only
  pairs for which that fails are `(⊤, ⊤)` and `(⊥, ⊥)`. Also `zero_sub' d : 0 - d = -d`. Pure Mathlib; needs no
  finiteness of the arguments, so an L1 distance written either way round is one number.
-/
import Idealize.ShloMosaic.PureOps.Ideal.Laws

namespace Cert.Pairwise

/-- `-(a - b) = b - a` on the extended reals for two different arguments. -/
theorem neg_sub_of_ne {a b : EReal} (h : a ≠ b) : -(a - b) = b - a := by
  have h1 : a ≠ ⊥ ∨ b ≠ ⊥ := by
    by_contra hc
    rw [not_or, not_not, not_not] at hc
    exact h (hc.1.trans hc.2.symm)
  have h2 : a ≠ ⊤ ∨ b ≠ ⊤ := by
    by_contra hc
    rw [not_or, not_not, not_not] at hc
    exact h (hc.1.trans hc.2.symm)
  rw [EReal.neg_sub h1 h2, add_comm, sub_eq_add_neg]

/-- `|a - b| = |b - a|` with the absolute value read as `max x (-x)`: every extended real, the infinities included. -/
theorem absDiff_comm (a b : EReal) : max (a - b) (-(a - b)) = max (b - a) (-(b - a)) := by
  by_cases h : a = b
  · subst h; rfl
  · rw [neg_sub_of_ne h, neg_sub_of_ne (Ne.symm h), max_comm]

/-- `0 - d = -d` on the extended reals. -/
theorem zero_sub' (d : EReal) : (0 : EReal) - d = -d := by
  rw [sub_eq_add_neg, zero_add]

end Cert.Pairwise
-- ==== Proof.LibIdx3.lean ====
/-
  A rank-3 index set is the product of its three coordinate ranges (`idxEquiv3`), so a sum over it, in any
  additive commutative monoid and for any extents, is the triple sum over the coordinates (`sum_idx3`): the rank-3
  companion of the library's `idxEquiv2` / `sum_idx2`. It is what turns a total reduction of a rank-3 array, read as
  a sum over every index, into sums a proof can re-index axis by axis.
-/
import Idealize.ShloMosaic.Lib.ValueIdx

noncomputable section

open scoped BigOperators

namespace Cert.Pairwise

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.Pairwise

end
-- ==== Proof.PairSum.lean ====
/-
  The quantity both programs compute, as mathematics on the extended reals.

  Fix a batch element and a frame: the input then gives 32 rows `f k : Fin 63 → EReal`. For a pair of rows
  `k1 < k2` the summand is `exp (-(‖f k2 - f k1‖₁))`, the L1 distance written `∑ e, max d (-d)` with
  `d = f k2 e - f k1 e`; pairs with `k1 ≥ k2` contribute `0`. `rowTotal f` is the sum over all ordered pairs,
  and the whole array's total is the sum of `rowTotal` over the 32 batch elements and 64 frames. The distance
  is symmetric in the two rows (`rowDist_comm`), which is the only law that is not a rearrangement of a sum.
  The batch axis is re-indexed twice: as 4 tiles of 8 (how the kernel walks it) and, merged with the frame
  axis, as one axis of 2048 = 32 · 64 positions (how the reference flattens it).
-/
import Idealize.ShloMosaic.Lib.ValueIdx
import Idealize.ShloMosaic.PureOps.Ideal.Laws
import proofs.«115086_j2963527434409_2_alg».proof.Proof.LibAbsDiff
import proofs.«115086_j2963527434409_2_alg».proof.Proof.LibIdx3

noncomputable section

open scoped BigOperators

namespace Cert.Pairwise

open Idealize.ShloMosaic Idealize.ShloMosaic.ValueIdx

/-- The L1 distance of rows `k1` and `k2`, each difference taken as row `k2` minus row `k1`. -/
def rowDist (f : Fin 32 → Fin 63 → EReal) (k1 k2 : Fin 32) : EReal :=
  ∑ e : Fin 63, max (f k2 e - f k1 e) (-(f k2 e - f k1 e))

/-- The distance does not depend on the order of the two rows. -/
theorem rowDist_comm (f : Fin 32 → Fin 63 → EReal) (k1 k2 : Fin 32) : rowDist f k1 k2 = rowDist f k2 k1 :=
  Finset.sum_congr rfl fun e _ => absDiff_comm (f k2 e) (f k1 e)

/-- One ordered pair's summand: `exp (-distance)` above the diagonal, `0` on and below it. -/
def pairTerm (f : Fin 32 → Fin 63 → EReal) (k1 k2 : Fin 32) : EReal :=
  if k1 < k2 then Ideal.exp (-(rowDist f k1 k2)) else 0

/-- All ordered pairs of the 32 rows. -/
def rowTotal (f : Fin 32 → Fin 63 → EReal) : EReal := ∑ k1 : Fin 32, ∑ k2 : Fin 32, pairTerm f k1 k2

/-- The total over a block of 8 batch elements. -/
def blockTotal (v : (⟨4, ![32, 8, 64, 63]⟩ : Shape).Idx → EReal) : EReal :=
  ∑ b : Fin 8, ∑ t : Fin 64, rowTotal (fun k e => v (ix4 k b t e))

/-- The total over the whole array. -/
def arrayTotal (x : (⟨4, ![32, 32, 64, 63]⟩ : Shape).Idx → EReal) : EReal :=
  ∑ b : Fin 32, ∑ t : Fin 64, rowTotal (fun k e => x (ix4 k b t e))

/-- What both programs return: the array's total divided by the number of summands above the diagonal,
    `32 · 64 · 32 · 31 / 2 = 1015808`, the float word both programs print for it. -/
def meanOf (x : (⟨4, ![32, 32, 64, 63]⟩ : Shape).Idx → EReal) : (⟨0, ![]⟩ : Shape).Idx → EReal :=
  Host.divf (F := Ideal) (φ := .f32) (fun _ => arrayTotal x) (constant (F := Ideal) ⟨0, ![]⟩ .f32 0x49780000#32)

/-- Batch element `b'` of tile `i`: position `b' + 8 · i` of the batch axis. -/
abbrev tileRow (i : Fin 4) (b' : Fin 8) : Fin 32 := finProdFinEquiv (i, b')

theorem tileRow_val (i : Fin 4) (b' : Fin 8) : (tileRow i b').val = b'.val + 8 * i.val := rfl

/-- Tile `i` of the array: the 8 batch elements `8 i … 8 i + 7`, every row, frame and feature. -/
def tile (x : (⟨4, ![32, 32, 64, 63]⟩ : Shape).Idx → EReal) (i : Fin 4) :
    (⟨4, ![32, 8, 64, 63]⟩ : Shape).Idx → EReal :=
  fun j => x (ix4 (j 0) (tileRow i (j 1)) (j 2) (j 3))

/-- The array's total is the sum of its four tiles' totals, added in the order the grid visits them. -/
theorem arrayTotal_eq_tiles (x : (⟨4, ![32, 32, 64, 63]⟩ : Shape).Idx → EReal) :
    arrayTotal x = 0 + blockTotal (tile x 0) + blockTotal (tile x 1) + blockTotal (tile x 2) + blockTotal (tile x 3) := by
  unfold arrayTotal blockTotal
  rw [← Equiv.sum_comp (finProdFinEquiv : Fin 4 × Fin 8 ≃ Fin 32), Fintype.sum_prod_type, Fin.sum_univ_four, zero_add]
  rfl

/-- A sum over the merged axis of 2048 positions, position `p` standing for batch element `p / 64` and frame `p % 64`,
    is the double sum over batch elements and frames. -/
theorem sum_merged {M : Type*} [AddCommMonoid M] (h : Fin 32 → Fin 64 → M) :
    ∑ p : Fin 2048, h ⟨p.val / 64, by have := p.isLt; omega⟩ ⟨p.val % 64, Nat.mod_lt _ (by decide)⟩
      = ∑ b : Fin 32, ∑ t : Fin 64, h b t := by
  rw [← Fintype.sum_prod_type (f := fun q : Fin 32 × Fin 64 => h q.1 q.2)]
  exact Equiv.sum_comp (finProdFinEquiv (m := 32) (n := 64)).symm (fun q : Fin 32 × Fin 64 => h q.1 q.2)

/-- Thirty-two terms added one after the other from `0`, in the order of their index, are the sum over `Fin 32`. -/
theorem sum32 {M : Type*} [AddCommMonoid M] (T : Fin 32 → M) :
    0 + T ⟨0, by decide⟩ + T ⟨1, by decide⟩ + T ⟨2, by decide⟩ + T ⟨3, by decide⟩ + T ⟨4, by decide⟩ + T ⟨5, by decide⟩ + T ⟨6, by decide⟩ + T ⟨7, by decide⟩ + T ⟨8, by decide⟩ + T ⟨9, by decide⟩ + T ⟨10, by decide⟩ + T ⟨11, by decide⟩ + T ⟨12, by decide⟩ + T ⟨13, by decide⟩ + T ⟨14, by decide⟩ + T ⟨15, by decide⟩ + T ⟨16, by decide⟩ + T ⟨17, by decide⟩ + T ⟨18, by decide⟩ + T ⟨19, by decide⟩ + T ⟨20, by decide⟩ + T ⟨21, by decide⟩ + T ⟨22, by decide⟩ + T ⟨23, by decide⟩ + T ⟨24, by decide⟩ + T ⟨25, by decide⟩ + T ⟨26, by decide⟩ + T ⟨27, by decide⟩ + T ⟨28, by decide⟩ + T ⟨29, by decide⟩ + T ⟨30, by decide⟩ + T ⟨31, by decide⟩ = ∑ k : Fin 32, T k := by
  symm
  simp only [Fin.sum_univ_castSucc, Fin.sum_univ_zero]
  rfl

/-- The kernel's order of summation for one block: for each row `k1`, over the rows `k2`, the batch elements and the
    frames. Rearranged, it is the block's total. -/
theorem blockTotal_eq_kernelOrder (v : (⟨4, ![32, 8, 64, 63]⟩ : Shape).Idx → EReal) :
    ∑ k1 : Fin 32, ∑ k2 : Fin 32, ∑ b : Fin 8, ∑ t : Fin 64, pairTerm (fun k e => v (ix4 k b t e)) k1 k2
      = blockTotal v := by
  unfold blockTotal rowTotal
  calc ∑ k1 : Fin 32, ∑ k2 : Fin 32, ∑ b : Fin 8, ∑ t : Fin 64, pairTerm (fun k e => v (ix4 k b t e)) k1 k2
      = ∑ k1 : Fin 32, ∑ b : Fin 8, ∑ k2 : Fin 32, ∑ t : Fin 64, pairTerm (fun k e => v (ix4 k b t e)) k1 k2 :=
        Finset.sum_congr rfl fun k1 _ => Finset.sum_comm
    _ = ∑ b : Fin 8, ∑ k1 : Fin 32, ∑ k2 : Fin 32, ∑ t : Fin 64, pairTerm (fun k e => v (ix4 k b t e)) k1 k2 :=
        Finset.sum_comm
    _ = ∑ b : Fin 8, ∑ k1 : Fin 32, ∑ t : Fin 64, ∑ k2 : Fin 32, pairTerm (fun k e => v (ix4 k b t e)) k1 k2 :=
        Finset.sum_congr rfl fun b _ => Finset.sum_congr rfl fun k1 _ => Finset.sum_comm
    _ = ∑ b : Fin 8, ∑ t : Fin 64, ∑ k1 : Fin 32, ∑ k2 : Fin 32, pairTerm (fun k e => v (ix4 k b t e)) k1 k2 :=
        Finset.sum_congr rfl fun b _ => Finset.sum_comm

end Cert.Pairwise

end
-- ==== Proof.IterTerm.lean ====
/-
  One pass of the kernel's unrolled loop over the rows, as a term and as a number.

  The body fixes a row `k1` of the loaded block (a strided slice at offset `k1` on the row axis, broadcast back over
  the 32 rows), subtracts it from every row, sums the absolute differences over the 63 features, keeps
  `exp (0 - distance)` where the row index is above `k1` (an iota on the row axis compared with the constant `k1`)
  and `0` elsewhere, and sums over frames, batch elements and rows, down to one `[1,1]` entry. `iterTerm` is that
  term with the offset vector and the comparison constant as parameters, spelt as the program prints it;
  `iterTerm_apply` reads it on the extended reals: the sum over `k2`, `b`, `t` of the pair summand of rows `(k1, k2)`.
-/
import proofs.«115086_j2963527434409_2_alg».proof.KernelIdeal
import proofs.«115086_j2963527434409_2_alg».proof.Proof.PairSum
import Idealize.ShloMosaic.Lib.Pipeline.Value
import Idealize.ShloMosaic.Lib.ValueIdx
import Idealize.ShloMosaic.PureOps.Ideal.Laws
import Idealize.ShloMosaic.Lib.Affine

noncomputable section

open scoped BigOperators

namespace Cert.KernelIdeal.Rows

open Idealize.ShloMosaic Idealize.ShloMosaic.ValueIdx Cert.KernelIdeal Cert.Pairwise

variable {F : FTy → Type} [FloatOps F] [Facts]
open Facts₀ Facts

/-- One pass of the loop over `k1`: everything between the strided slice of row `k1` and the `[1,1]` partial sum. -/
def iterTerm (off : Fin 4 → ℕ) (hs : S32x8x64x63.Slices off S1x8x64x63) (c : BitVec 32) (v3 : Vec F S32x8x64x63 .f32) :
    FVec F S1x1 .f32 :=
  shapeCast S1x1 (multiReduction .add [0] S1 (shapeCast S32x1 (multiReduction .add [1] S32 (multiReduction .add [2] S32x8
    (select (cmpi .sgt (iota .tc S32x8x64 32 [0] iota_S32x8x64_d0_w32) (broadcast S32x8x64 c))
      (exp (subf (broadcast S32x8x64 (Scalar.ofBits .f32 0x00000000#32))
        (multiReduction .add [3] S32x8x64 (absf (subf v3 (broadcastTo S32x8x64x63 (shapeCast S1x8x64x63 (shapeCast S8x64x63
          (extractStridedSlice S1x8x64x63 off v3 hs) shapeCasts_S1x8x64x63_S8x64x63) shapeCasts_S8x64x63_S1x8x64x63)
          broadcasts_S1x8x64x63_S32x8x64x63))) 0x00000000#32 reduces_S32x8x64x63_S32x8x64 (.inl rfl) rfl)))
      (broadcast S32x8x64 (Scalar.ofBits .f32 0x00000000#32)))
    0x00000000#32 reduces_S32x8x64_S32x8 (.inl rfl) rfl) 0x00000000#32 reduces_S32x8_S32 (.inl rfl) rfl) shapeCasts_S32_S32x1)
    0x00000000#32 reduces_S32x1_S1 (.inl rfl) rfl) shapeCasts_S1_S1x1

/-- The row mask: the iota on the row axis at row `k2` is above the constant `k1`, read signed, exactly when `k1 < k2`. -/
theorem mask_iff : ∀ k1 k2 : Fin 32,
    (IntOp.cmpi .sgt (BitVec.ofNat 32 k2.val) (BitVec.ofNat 32 k1.val) = 1#1) ↔ k1 < k2 := by
  decide +kernel

/-- The row a pass subtracts, broadcast back over the rows: at `(k2, b, t, e)` it is the block at `(k1, b, t, e)`. -/
theorem fixedRow_apply (k1 : ℕ) (hk : k1 < 32) (hs : S32x8x64x63.Slices ![k1, 0, 0, 0] S1x8x64x63)
    (v3 : FVec Ideal S32x8x64x63 .f32) (k2 : Fin 32) (b : Fin 8) (t : Fin 64) (e : Fin 63) :
    broadcastTo S32x8x64x63 (shapeCast S1x8x64x63 (shapeCast S8x64x63
        (extractStridedSlice S1x8x64x63 ![k1, 0, 0, 0] v3 hs) shapeCasts_S1x8x64x63_S8x64x63) shapeCasts_S8x64x63_S1x8x64x63)
        broadcasts_S1x8x64x63_S32x8x64x63 (ix4 k2 b t e)
      = v3 (ix4 (⟨k1, hk⟩ : Fin 32) b t e) := by
  rw [shapeCast_shapeCast]
  refine (broadcastTo_apply _ broadcasts_S1x8x64x63_S32x8x64x63 (ix4 k2 b t e) (ix4 (0 : Fin 1) b t e) ?_).trans ?_
  · intro a
    match a with
    | ⟨0, _⟩ => rfl
    | ⟨1, _⟩ => rfl
    | ⟨2, _⟩ => rfl
    | ⟨3, _⟩ => rfl
  · refine extractStridedSlice_apply ![k1, 0, 0, 0] v3 hs (ix4 (0 : Fin 1) b t e) (ix4 (⟨k1, hk⟩ : Fin 32) b t e) ?_
    intro a
    match a with
    | ⟨0, _⟩ => show k1 = k1 + 0; omega
    | ⟨1, _⟩ => show b.val = 0 + b.val; omega
    | ⟨2, _⟩ => show t.val = 0 + t.val; omega
    | ⟨3, _⟩ => show e.val = 0 + e.val; omega

/-- The absolute differences of one pass, summed over the features: at `(k2, b, t)` the distance of rows `k1` and `k2`. -/
theorem distance_apply (k1 : ℕ) (hk : k1 < 32) (hs : S32x8x64x63.Slices ![k1, 0, 0, 0] S1x8x64x63)
    (v3 : FVec Ideal S32x8x64x63 .f32) (k2 : Fin 32) (b : Fin 8) (t : Fin 64) :
    multiReduction .add [3] S32x8x64 (absf (subf v3 (broadcastTo S32x8x64x63 (shapeCast S1x8x64x63 (shapeCast S8x64x63
        (extractStridedSlice S1x8x64x63 ![k1, 0, 0, 0] v3 hs) shapeCasts_S1x8x64x63_S8x64x63) shapeCasts_S8x64x63_S1x8x64x63)
        broadcasts_S1x8x64x63_S32x8x64x63))) 0x00000000#32 reduces_S32x8x64x63_S32x8x64 (.inl rfl) rfl (ix3 k2 b t)
      = rowDist (fun k e => v3 (ix4 k b t e)) ⟨k1, hk⟩ k2 := by
  refine (Ideal.multiReduction_add_single _ 0x00000000#32 reduces_S32x8x64x63_S32x8x64 (.inl rfl) rfl (ix3 k2 b t)).trans ?_
  unfold rowDist
  refine Finset.sum_congr rfl fun (e : Fin 63) _ => ?_
  have hl : (reduces_S32x8x64x63_S32x8x64).lift (ix3 k2 b t) e = ix4 k2 b t e := by
    funext a
    match a with
    | ⟨0, _⟩ => rfl
    | ⟨1, _⟩ => rfl
    | ⟨2, _⟩ => rfl
    | ⟨3, _⟩ => rfl
  rw [hl]
  show max (v3 (ix4 k2 b t e) - _) (-(v3 (ix4 k2 b t e) - _)) = _
  rw [fixedRow_apply k1 hk hs v3 k2 b t e]

/-- One pass on the extended reals: the pair summands of row `k1` against every row `k2`, over the batch elements and
    frames of the block. -/
theorem iterTerm_apply (k1 : ℕ) (hk : k1 < 32) (hs : S32x8x64x63.Slices ![k1, 0, 0, 0] S1x8x64x63)
    (v3 : FVec Ideal S32x8x64x63 .f32) (j : S1x1.Idx) :
    iterTerm (F := Ideal) ![k1, 0, 0, 0] hs (BitVec.ofNat 32 k1) v3 j
      = ∑ k2 : Fin 32, ∑ b : Fin 8, ∑ t : Fin 64, pairTerm (fun k e => v3 (ix4 k b t e)) ⟨k1, hk⟩ k2 := by
  unfold iterTerm
  refine (shapeCast_apply _ shapeCasts_S1_S1x1 j (ix1 (0 : Fin 1)) ?_).trans ?_
  · rw [Shape.rowMajor_val_one, Shape.rowMajor_val_two]
    have h0 : (j 0).val < 1 := (j 0).isLt
    have h1 : (j 1).val < 1 := (j 1).isLt
    show 0 = (j 0).val * 1 + (j 1).val
    omega
  refine (Ideal.multiReduction_add_single _ 0x00000000#32 reduces_S32x1_S1 (.inl rfl) rfl (ix1 (0 : Fin 1))).trans ?_
  refine Finset.sum_congr rfl fun (k2 : Fin 32) _ => ?_
  refine (shapeCast_apply _ shapeCasts_S32_S32x1 _ (ix1 k2) ?_).trans ?_
  · rw [Shape.rowMajor_val_one, Shape.rowMajor_val_two]
    show k2.val = k2.val * 1 + 0
    omega
  refine (Ideal.multiReduction_add_single _ 0x00000000#32 reduces_S32x8_S32 (.inl rfl) rfl (ix1 k2)).trans ?_
  refine Finset.sum_congr rfl fun (b : Fin 8) _ => ?_
  have hlb : (reduces_S32x8_S32).lift (ix1 k2) b = ix2 k2 b := by
    funext a
    match a with
    | ⟨0, _⟩ => rfl
    | ⟨1, _⟩ => rfl
  rw [hlb]
  refine (Ideal.multiReduction_add_single _ 0x00000000#32 reduces_S32x8x64_S32x8 (.inl rfl) rfl (ix2 k2 b)).trans ?_
  refine Finset.sum_congr rfl fun (t : Fin 64) _ => ?_
  have hlt : (reduces_S32x8x64_S32x8).lift (ix2 k2 b) t = ix3 k2 b t := by
    funext a
    match a with
    | ⟨0, _⟩ => rfl
    | ⟨1, _⟩ => rfl
    | ⟨2, _⟩ => rfl
  rw [hlt]
  have hi : iota .tc S32x8x64 32 [0] iota_S32x8x64_d0_w32 (ix3 k2 b t) = BitVec.ofNat 32 k2.val :=
    iota_single_apply .tc S32x8x64 32 (0 : Fin 3) iota_S32x8x64_d0_w32 (ix3 k2 b t)
  have hd := distance_apply k1 hk hs v3 k2 b t
  refine (congrArg₂ (fun (c : BitVec 32) (d : EReal) => Scalar.select (IntOp.cmpi .sgt c (BitVec.ofNat 32 k1))
      (Ideal.exp (Ideal.ofBits .f32 0x00000000#32 - d)) (Ideal.ofBits .f32 0x00000000#32)) hi hd).trans ?_
  beta_reduce
  rw [Ideal.ofBits_zero_f32, zero_sub']
  unfold pairTerm
  by_cases hlt' : (⟨k1, hk⟩ : Fin 32) < k2
  · rw [if_pos hlt', show IntOp.cmpi .sgt (BitVec.ofNat 32 k2.val) (BitVec.ofNat 32 k1) = 1#1 from
      (mask_iff ⟨k1, hk⟩ k2).mpr hlt', select_one]
  · rw [if_neg hlt', eq_zero_of_ne_one (fun h => hlt' ((mask_iff ⟨k1, hk⟩ k2).mp h)), select_zero]

end Cert.KernelIdeal.Rows

end
-- ==== Proof.BlockPay.lean ====
/-
  What one grid point adds to the carried accumulator.

  The body's arithmetic is printed in pieces cut by statement count; composed, the value stored into the
  accumulator is one term of the loaded block `v3` and of the accumulator's old contents `acc` (`blockPay`).
  That term is `acc + (((0 + P 0) + P 1) + … + P 31)`, `P k` the pass of the unrolled loop that fixes row `k`
  (`blockPay_eq`: the same term, regrouped by passes — nothing is computed). On the extended reals the 32 passes
  add up to the block's total over all ordered pairs of rows, all batch elements and frames (`blockPay_apply`).
-/
import proofs.«115086_j2963527434409_2_alg».proof.Proof.Gen.KernelIdeal.Skeleton
import proofs.«115086_j2963527434409_2_alg».proof.Proof.IterTerm

set_option maxRecDepth 16384

noncomputable section

open scoped BigOperators

namespace Cert.KernelIdeal.Rows

open Idealize.ShloMosaic Idealize.ShloMosaic.ValueIdx Cert.KernelIdeal Cert.KernelIdeal.Gen Cert.Pairwise

variable {F : FTy → Type} [FloatOps F]

/-- The value the body stores into the accumulator, from the loaded block and the accumulator's old contents. -/
def blockPay (v3 : Vec F S32x8x64x63 .f32) (acc : Vec F S1x1 .f32) : FVec F S1x1 .f32 :=
  k0_pay1 (k0_pay39 v3 (k0_pay35 v3 (k0_pay33 v3 (k0_pay31 v3 (k0_pay29 v3 (k0_pay27 v3 (k0_pay25 v3 (k0_pay21 v3 (k0_pay17 v3 (k0_pay15 v3 (k0_pay13 v3 (k0_pay11 v3 (k0_pay9 v3 (k0_pay7 v3 (k0_pay3 v3) k0_pay4 (k0_pay5 v3) k0_pay6) (k0_pay8 v3)) (k0_pay10 v3)) (k0_pay12 v3)) (k0_pay14 v3)) (k0_pay16 v3) (iota .tc S32x8x64 32 [0] Facts₀.iota_S32x8x64_d0_w32) 12#32) (k0_pay18 v3) k0_pay19 k0_pay20) k0_pay22 (k0_pay23 v3) k0_pay24) (k0_pay26 v3)) (k0_pay28 v3)) (k0_pay30 v3)) (k0_pay32 v3)) (k0_pay34 v3) (iota .tc S32x8x64 32 [0] Facts₀.iota_S32x8x64_d0_w32) 27#32) (k0_pay36 v3) k0_pay37 k0_pay38) k0_pay40 (k0_pay41 v3) k0_pay42 acc

/-- The 32 passes added one after the other from the zero splat. -/
def passes (v3 : Vec F S32x8x64x63 .f32) : FVec F S1x1 .f32 :=
  addf (addf (addf (addf (addf (addf (addf (addf (addf (addf (addf (addf (addf (addf (addf (addf (addf (addf (addf (addf (addf (addf (addf (addf (addf (addf (addf (addf (addf (addf (addf (addf (broadcast S1x1 (Scalar.ofBits .f32 0x00000000#32)) (iterTerm ![0, 0, 0, 0] Facts₀.slices_S32x8x64x63_o0_0_0_0_S1x8x64x63 0#32 v3)) (iterTerm ![1, 0, 0, 0] Facts₀.slices_S32x8x64x63_o1_0_0_0_S1x8x64x63 1#32 v3)) (iterTerm ![2, 0, 0, 0] Facts₀.slices_S32x8x64x63_o2_0_0_0_S1x8x64x63 2#32 v3)) (iterTerm ![3, 0, 0, 0] Facts₀.slices_S32x8x64x63_o3_0_0_0_S1x8x64x63 3#32 v3)) (iterTerm ![4, 0, 0, 0] Facts₀.slices_S32x8x64x63_o4_0_0_0_S1x8x64x63 4#32 v3)) (iterTerm ![5, 0, 0, 0] Facts₀.slices_S32x8x64x63_o5_0_0_0_S1x8x64x63 5#32 v3)) (iterTerm ![6, 0, 0, 0] Facts₀.slices_S32x8x64x63_o6_0_0_0_S1x8x64x63 6#32 v3)) (iterTerm ![7, 0, 0, 0] Facts₀.slices_S32x8x64x63_o7_0_0_0_S1x8x64x63 7#32 v3)) (iterTerm ![8, 0, 0, 0] Facts₀.slices_S32x8x64x63_o8_0_0_0_S1x8x64x63 8#32 v3)) (iterTerm ![9, 0, 0, 0] Facts₀.slices_S32x8x64x63_o9_0_0_0_S1x8x64x63 9#32 v3)) (iterTerm ![10, 0, 0, 0] Facts₀.slices_S32x8x64x63_o10_0_0_0_S1x8x64x63 10#32 v3)) (iterTerm ![11, 0, 0, 0] Facts₀.slices_S32x8x64x63_o11_0_0_0_S1x8x64x63 11#32 v3)) (iterTerm ![12, 0, 0, 0] Facts₀.slices_S32x8x64x63_o12_0_0_0_S1x8x64x63 12#32 v3)) (iterTerm ![13, 0, 0, 0] Facts₀.slices_S32x8x64x63_o13_0_0_0_S1x8x64x63 13#32 v3)) (iterTerm ![14, 0, 0, 0] Facts₀.slices_S32x8x64x63_o14_0_0_0_S1x8x64x63 14#32 v3)) (iterTerm ![15, 0, 0, 0] Facts₀.slices_S32x8x64x63_o15_0_0_0_S1x8x64x63 15#32 v3)) (iterTerm ![16, 0, 0, 0] Facts₀.slices_S32x8x64x63_o16_0_0_0_S1x8x64x63 16#32 v3)) (iterTerm ![17, 0, 0, 0] Facts₀.slices_S32x8x64x63_o17_0_0_0_S1x8x64x63 17#32 v3)) (iterTerm ![18, 0, 0, 0] Facts₀.slices_S32x8x64x63_o18_0_0_0_S1x8x64x63 18#32 v3)) (iterTerm ![19, 0, 0, 0] Facts₀.slices_S32x8x64x63_o19_0_0_0_S1x8x64x63 19#32 v3)) (iterTerm ![20, 0, 0, 0] Facts₀.slices_S32x8x64x63_o20_0_0_0_S1x8x64x63 20#32 v3)) (iterTerm ![21, 0, 0, 0] Facts₀.slices_S32x8x64x63_o21_0_0_0_S1x8x64x63 21#32 v3)) (iterTerm ![22, 0, 0, 0] Facts₀.slices_S32x8x64x63_o22_0_0_0_S1x8x64x63 22#32 v3)) (iterTerm ![23, 0, 0, 0] Facts₀.slices_S32x8x64x63_o23_0_0_0_S1x8x64x63 23#32 v3)) (iterTerm ![24, 0, 0, 0] Facts₀.slices_S32x8x64x63_o24_0_0_0_S1x8x64x63 24#32 v3)) (iterTerm ![25, 0, 0, 0] Facts₀.slices_S32x8x64x63_o25_0_0_0_S1x8x64x63 25#32 v3)) (iterTerm ![26, 0, 0, 0] Facts₀.slices_S32x8x64x63_o26_0_0_0_S1x8x64x63 26#32 v3)) (iterTerm ![27, 0, 0, 0] Facts₀.slices_S32x8x64x63_o27_0_0_0_S1x8x64x63 27#32 v3)) (iterTerm ![28, 0, 0, 0] Facts₀.slices_S32x8x64x63_o28_0_0_0_S1x8x64x63 28#32 v3)) (iterTerm ![29, 0, 0, 0] Facts₀.slices_S32x8x64x63_o29_0_0_0_S1x8x64x63 29#32 v3)) (iterTerm ![30, 0, 0, 0] Facts₀.slices_S32x8x64x63_o30_0_0_0_S1x8x64x63 30#32 v3)) (iterTerm ![31, 0, 0, 0] Facts₀.slices_S32x8x64x63_o31_0_0_0_S1x8x64x63 31#32 v3)

/-- The stored value is the old accumulator plus the passes: the printed pieces, regrouped. -/
theorem blockPay_eq (v3 : Vec F S32x8x64x63 .f32) (acc : Vec F S1x1 .f32) :
    blockPay v3 acc = shapeCast S1x1 (addf acc (passes v3)) Facts₀.shapeCasts_S1x1_S1x1 := by
  unfold blockPay passes k0_pay1 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29 k0_pay30 k0_pay31 k0_pay32 k0_pay33 k0_pay34 k0_pay35 k0_pay36 k0_pay37 k0_pay38 k0_pay39 k0_pay40 k0_pay41 k0_pay42 iterTerm
  rfl

/-- On the extended reals the passes add up to the block's total. -/
theorem passes_apply (v3 : FVec Ideal S32x8x64x63 .f32) (j : S1x1.Idx) :
    passes (F := Ideal) v3 j = blockTotal v3 := by
  unfold passes
  simp only [addf_apply, broadcast_apply]
  rw [iterTerm_apply 0 (by decide) Facts₀.slices_S32x8x64x63_o0_0_0_0_S1x8x64x63 v3 j]
  rw [iterTerm_apply 1 (by decide) Facts₀.slices_S32x8x64x63_o1_0_0_0_S1x8x64x63 v3 j]
  rw [iterTerm_apply 2 (by decide) Facts₀.slices_S32x8x64x63_o2_0_0_0_S1x8x64x63 v3 j]
  rw [iterTerm_apply 3 (by decide) Facts₀.slices_S32x8x64x63_o3_0_0_0_S1x8x64x63 v3 j]
  rw [iterTerm_apply 4 (by decide) Facts₀.slices_S32x8x64x63_o4_0_0_0_S1x8x64x63 v3 j]
  rw [iterTerm_apply 5 (by decide) Facts₀.slices_S32x8x64x63_o5_0_0_0_S1x8x64x63 v3 j]
  rw [iterTerm_apply 6 (by decide) Facts₀.slices_S32x8x64x63_o6_0_0_0_S1x8x64x63 v3 j]
  rw [iterTerm_apply 7 (by decide) Facts₀.slices_S32x8x64x63_o7_0_0_0_S1x8x64x63 v3 j]
  rw [iterTerm_apply 8 (by decide) Facts₀.slices_S32x8x64x63_o8_0_0_0_S1x8x64x63 v3 j]
  rw [iterTerm_apply 9 (by decide) Facts₀.slices_S32x8x64x63_o9_0_0_0_S1x8x64x63 v3 j]
  rw [iterTerm_apply 10 (by decide) Facts₀.slices_S32x8x64x63_o10_0_0_0_S1x8x64x63 v3 j]
  rw [iterTerm_apply 11 (by decide) Facts₀.slices_S32x8x64x63_o11_0_0_0_S1x8x64x63 v3 j]
  rw [iterTerm_apply 12 (by decide) Facts₀.slices_S32x8x64x63_o12_0_0_0_S1x8x64x63 v3 j]
  rw [iterTerm_apply 13 (by decide) Facts₀.slices_S32x8x64x63_o13_0_0_0_S1x8x64x63 v3 j]
  rw [iterTerm_apply 14 (by decide) Facts₀.slices_S32x8x64x63_o14_0_0_0_S1x8x64x63 v3 j]
  rw [iterTerm_apply 15 (by decide) Facts₀.slices_S32x8x64x63_o15_0_0_0_S1x8x64x63 v3 j]
  rw [iterTerm_apply 16 (by decide) Facts₀.slices_S32x8x64x63_o16_0_0_0_S1x8x64x63 v3 j]
  rw [iterTerm_apply 17 (by decide) Facts₀.slices_S32x8x64x63_o17_0_0_0_S1x8x64x63 v3 j]
  rw [iterTerm_apply 18 (by decide) Facts₀.slices_S32x8x64x63_o18_0_0_0_S1x8x64x63 v3 j]
  rw [iterTerm_apply 19 (by decide) Facts₀.slices_S32x8x64x63_o19_0_0_0_S1x8x64x63 v3 j]
  rw [iterTerm_apply 20 (by decide) Facts₀.slices_S32x8x64x63_o20_0_0_0_S1x8x64x63 v3 j]
  rw [iterTerm_apply 21 (by decide) Facts₀.slices_S32x8x64x63_o21_0_0_0_S1x8x64x63 v3 j]
  rw [iterTerm_apply 22 (by decide) Facts₀.slices_S32x8x64x63_o22_0_0_0_S1x8x64x63 v3 j]
  rw [iterTerm_apply 23 (by decide) Facts₀.slices_S32x8x64x63_o23_0_0_0_S1x8x64x63 v3 j]
  rw [iterTerm_apply 24 (by decide) Facts₀.slices_S32x8x64x63_o24_0_0_0_S1x8x64x63 v3 j]
  rw [iterTerm_apply 25 (by decide) Facts₀.slices_S32x8x64x63_o25_0_0_0_S1x8x64x63 v3 j]
  rw [iterTerm_apply 26 (by decide) Facts₀.slices_S32x8x64x63_o26_0_0_0_S1x8x64x63 v3 j]
  rw [iterTerm_apply 27 (by decide) Facts₀.slices_S32x8x64x63_o27_0_0_0_S1x8x64x63 v3 j]
  rw [iterTerm_apply 28 (by decide) Facts₀.slices_S32x8x64x63_o28_0_0_0_S1x8x64x63 v3 j]
  rw [iterTerm_apply 29 (by decide) Facts₀.slices_S32x8x64x63_o29_0_0_0_S1x8x64x63 v3 j]
  rw [iterTerm_apply 30 (by decide) Facts₀.slices_S32x8x64x63_o30_0_0_0_S1x8x64x63 v3 j]
  rw [iterTerm_apply 31 (by decide) Facts₀.slices_S32x8x64x63_o31_0_0_0_S1x8x64x63 v3 j]
  rw [← blockTotal_eq_kernelOrder]
  show Ideal.ofBits .f32 0x00000000#32 + _ + _ + _ + _ + _ + _ + _ + _ + _ + _ + _ + _ + _ + _ + _ + _ + _ + _ + _ + _ + _ + _ + _ + _ + _ + _ + _ + _ + _ + _ + _ + _ = _
  rw [Ideal.ofBits_zero_f32]
  exact sum32 (fun k1 : Fin 32 => ∑ k2 : Fin 32, ∑ b : Fin 8, ∑ t : Fin 64, pairTerm (fun k e => v3 (ix4 k b t e)) k1 k2)

/-- The stored value on the extended reals: the old accumulator plus the block's total. -/
theorem blockPay_apply (v3 : FVec Ideal S32x8x64x63 .f32) (acc : FVec Ideal S1x1 .f32) (j : S1x1.Idx) :
    blockPay (F := Ideal) v3 acc j = acc j + blockTotal v3 := by
  rw [blockPay_eq, shapeCast_self, addf_apply, passes_apply]

end Cert.KernelIdeal.Rows

end
-- ==== Proof.Pieces.lean ====
/-
  What each control case of the body leaves behind, as values.

  The body has three cases: the first grid point (the accumulator is zeroed, then updated), the middle points
  (the accumulator is updated) and the last point (updated, then copied into the output block). In every case
  the accumulator ends at `blockPay` of the point's input block and of what the accumulator held — the zero
  splat at the first point, the previous point's value afterwards — and at the last point the output block
  holds the same value, read back from the accumulator after its update.
-/
import proofs.«115086_j2963527434409_2_alg».proof.Proof.Gen.KernelIdeal.Frame
import proofs.«115086_j2963527434409_2_alg».proof.Proof.BlockPay

set_option maxRecDepth 16384

noncomputable section

namespace Cert.KernelIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

theorem zeros2 : (![0, 0] : Fin 2 → ℕ) = fun _ => 0 := by
  funext a; match a with | ⟨0, _⟩ => rfl | ⟨1, _⟩ => rfl

theorem zeros4 : (![0, 0, 0, 0] : Fin 4 → ℕ) = fun _ => 0 := by
  funext a; match a with | ⟨0, _⟩ => rfl | ⟨1, _⟩ => rfl | ⟨2, _⟩ => rfl | ⟨3, _⟩ => rfl

/-- The zero splat the first point stores before it accumulates. -/
def zeroAcc : FVec F S1x1 .f32 := k0_pay2

/-- Middle points: the accumulator ends at the stored value over what the point before left. -/
theorem scratch_B (c : Dev nD) (i : grid0.Coords) (arg1 : Memref sig .tc .vmem S32x8x64x63 .f32) (harg1 : arg1.IsWhole) (arg2 : Memref sig .tc .vmem S1x1 .f32) (harg2 : arg2.IsWhole) (arg3 : Memref sig .tc .vmem S1x1 .f32) (harg3 : arg3.IsWhole) (hc0 : ¬cond0_0 i) (hc1 : ¬cond0_1 i)
    (x0 : Vec F S32x8x64x63 .f32) (xs0 : Vec F S1x1 .f32) :
    sout0_B_0 c i arg1 harg1 arg2 harg2 arg3 harg3 hc0 hc1 x0 xs0 = blockPay x0 xs0 := by
  unfold sout0_B_0
  rw [View.read_writes_eq_canon _ _ _ (scover0_B_0 c i arg1 harg1 arg2 harg2 arg3 harg3 hc0 hc1 x0 xs0)]
  unfold kernelRun0_B
  dsimp only
  sl_unfold_words
  rw [View.canon_unit_zero zeros2]
  simp only [View.readAt_eq_ld, harg1.read_unread, harg3.read_unread, View.ld_unit_zero (S := S32x8x64x63) zeros4,
    View.ld_unit_zero (S := S1x1) zeros2]
  rfl

/-- The last point: the same for the accumulator. -/
theorem scratch_C (c : Dev nD) (i : grid0.Coords) (arg1 : Memref sig .tc .vmem S32x8x64x63 .f32) (harg1 : arg1.IsWhole) (arg2 : Memref sig .tc .vmem S1x1 .f32) (harg2 : arg2.IsWhole) (arg3 : Memref sig .tc .vmem S1x1 .f32) (harg3 : arg3.IsWhole) (hc0 : ¬cond0_0 i) (hc1 : cond0_1 i)
    (x0 : Vec F S32x8x64x63 .f32) (xs0 : Vec F S1x1 .f32) :
    sout0_C_0 c i arg1 harg1 arg2 harg2 arg3 harg3 hc0 hc1 x0 xs0 = blockPay x0 xs0 := by
  unfold sout0_C_0
  rw [View.read_writes_eq_canon _ _ _ (scover0_C_0 c i arg1 harg1 arg2 harg2 arg3 harg3 hc0 hc1 x0 xs0)]
  unfold kernelRun0_C
  dsimp only
  sl_unfold_words
  rw [View.canon_unit_zero zeros2]
  simp only [View.readAt_eq_ld, harg1.read_unread, harg3.read_unread, View.ld_unit_zero (S := S32x8x64x63) zeros4,
    View.ld_unit_zero (S := S1x1) zeros2]
  rfl

/-- The last point: the output block holds the accumulator's new value. -/
theorem out_C (c : Dev nD) (i : grid0.Coords) (arg1 : Memref sig .tc .vmem S32x8x64x63 .f32) (harg1 : arg1.IsWhole) (arg2 : Memref sig .tc .vmem S1x1 .f32) (harg2 : arg2.IsWhole) (arg3 : Memref sig .tc .vmem S1x1 .f32) (harg3 : arg3.IsWhole) (hc0 : ¬cond0_0 i) (hc1 : cond0_1 i)
    (x0 : Vec F S32x8x64x63 .f32) (xs0 : Vec F S1x1 .f32) :
    out0_C_1 c i arg1 harg1 arg2 harg2 arg3 harg3 hc0 hc1 x0 xs0 = blockPay x0 xs0 := by
  unfold out0_C_1
  rw [View.read_writes_eq_canon _ _ _ (cover0_C_1 c i arg1 harg1 arg2 harg2 arg3 harg3 hc0 hc1 x0 xs0)]
  unfold kernelRun0_C
  dsimp only
  sl_unfold_words
  rw [View.canon_unit_zero zeros2, View.readCov_unit_zero _ zeros2]
  simp only [View.readAt_eq_ld, harg1.read_unread, harg3.read_unread, View.ld_unit_zero (S := S32x8x64x63) zeros4,
    View.ld_unit_zero (S := S1x1) zeros2]
  rfl

/-- The first point: the accumulator is zeroed and then updated, so it ends at the stored value over the zero splat. -/
theorem scratch_A (c : Dev nD) (i : grid0.Coords) (arg1 : Memref sig .tc .vmem S32x8x64x63 .f32) (harg1 : arg1.IsWhole) (arg2 : Memref sig .tc .vmem S1x1 .f32) (harg2 : arg2.IsWhole) (arg3 : Memref sig .tc .vmem S1x1 .f32) (harg3 : arg3.IsWhole) (hc0 : cond0_0 i) (hc1 : ¬cond0_1 i)
    (x0 : Vec F S32x8x64x63 .f32) :
    sout0_A_0 c i arg1 harg1 arg2 harg2 arg3 harg3 hc0 hc1 x0 = blockPay x0 zeroAcc := by
  unfold sout0_A_0
  rw [View.read_writes_eq_canon _ _ _ (scover0_A_0 c i arg1 harg1 arg2 harg2 arg3 harg3 hc0 hc1 x0)]
  unfold kernelRun0_A
  dsimp only
  sl_unfold_words
  rw [View.canon_cons_unit_zero zeros2, View.readCov_unit_zero _ zeros2]
  simp only [View.readAt_eq_ld, harg1.read_unread, View.ld_unit_zero (S := S32x8x64x63) zeros4]
  rfl

end Cert.KernelIdeal.Rows

end
-- ==== Proof.Accumulate.lean ====
/-
  The accumulator over the four grid points, and the output array after the run.

  The grid walks the batch axis in four tiles of eight. The carried accumulator is zeroed at the first point and
  gains one block's total at every point; at the last point its value is copied to the one-entry output block,
  the only write-back of that window. So the output array ends at `0 + T₀ + T₁ + T₂ + T₃`, `Tᵢ` the total of
  tile `i` of the argument array, which is the whole array's total.
-/
import proofs.«115086_j2963527434409_2_alg».proof.Proof.Pieces

set_option maxRecDepth 16384

noncomputable section

open scoped BigOperators

namespace Cert.KernelIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen Cert.Pairwise

variable (m : (ℓ : Loc nD τ sig) → Buf (Elt Ideal) ℓ)

theorem lt0 : 0 < cfg0.N := by rw [show cfg0.N = 4 from N_0]; decide
theorem lt1 : 1 < cfg0.N := by rw [show cfg0.N = 4 from N_0]; decide
theorem lt2 : 2 < cfg0.N := by rw [show cfg0.N = 4 from N_0]; decide
theorem lt3 : 3 < cfg0.N := by rw [show cfg0.N = 4 from N_0]; decide

/-! ## The accumulator point by point -/

/-- At the first point the accumulator ends at the stored value over the zero splat. -/
theorem acc_first (c : Dev nD) (t : Fin cfg0.N) (h0 : t.val % 4 = 0) (h1 : ¬t.val % 4 = 3) :
    (outsAt0 m c t.val t.isLt).2 = blockPay (iblk m c 0 t) (zeroAcc (F := Ideal)) := by
  rw [outsAt0_A m c t h0 h1]
  exact scratch_A c (grid0.coords t) (ms0_0 t) (hs0_0 t) (ms0_1 t) (hs0_1 t) scM0_0 (Memref.isWhole_whole _)
    ((hcond0_0 t).mpr h0) (fun h => h1 ((hcond0_1 t).mp h)) (iblk m c 0 t)

/-- At a middle point it ends at the stored value over what the point before left. -/
theorem acc_mid (c : Dev nD) (t : Fin cfg0.N) (h0 : ¬t.val % 4 = 0) (h1 : ¬t.val % 4 = 3) :
    (outsAt0 m c t.val t.isLt).2
      = blockPay (iblk m c 0 t) (outsAt0 m c (t.val - 1) (Nat.lt_of_le_of_lt (Nat.sub_le _ _) t.isLt)).2 := by
  rw [outsAt0_B m c t h0 h1]
  exact scratch_B c (grid0.coords t) (ms0_0 t) (hs0_0 t) (ms0_1 t) (hs0_1 t) scM0_0 (Memref.isWhole_whole _)
    (fun h => h0 ((hcond0_0 t).mp h)) (fun h => h1 ((hcond0_1 t).mp h)) (iblk m c 0 t)
    (outsAt0 m c (t.val - 1) (Nat.lt_of_le_of_lt (Nat.sub_le _ _) t.isLt)).2

/-- At the last point the output block holds the stored value over what the point before left. -/
theorem out_last (c : Dev nD) (t : Fin cfg0.N) (h0 : ¬t.val % 4 = 0) (h1 : t.val % 4 = 3) :
    (outsAt0 m c t.val t.isLt).1
      = blockPay (iblk m c 0 t) (outsAt0 m c (t.val - 1) (Nat.lt_of_le_of_lt (Nat.sub_le _ _) t.isLt)).2 := by
  rw [outsAt0_C m c t h0 h1]
  exact out_C c (grid0.coords t) (ms0_0 t) (hs0_0 t) (ms0_1 t) (hs0_1 t) scM0_0 (Memref.isWhole_whole _)
    (fun h => h0 ((hcond0_0 t).mp h)) ((hcond0_1 t).mpr h1) (iblk m c 0 t)
    (outsAt0 m c (t.val - 1) (Nat.lt_of_le_of_lt (Nat.sub_le _ _) t.isLt)).2

/-- The zero splat is the extended real `0`. -/
theorem zeroAcc_apply (j : S1x1.Idx) : zeroAcc (F := Ideal) j = 0 := by
  unfold zeroAcc k0_pay2
  rw [shapeCast_self]
  exact Ideal.ofBits_zero_f32

/-- The output block at the last point: the four blocks' totals added from `0` in the grid's order. -/
theorem out_value (c : Dev nD) (j : S1x1.Idx) :
    (outsAt0 m c 3 lt3).1 j
      = 0 + blockTotal (iblk m c 0 ⟨0, lt0⟩) + blockTotal (iblk m c 0 ⟨1, lt1⟩) + blockTotal (iblk m c 0 ⟨2, lt2⟩)
          + blockTotal (iblk m c 0 ⟨3, lt3⟩) := by
  have e3 : (outsAt0 m c 3 lt3).1 = blockPay (iblk m c 0 ⟨3, lt3⟩) (outsAt0 m c 2 lt2).2 :=
    out_last m c ⟨3, lt3⟩ (by decide) (by decide)
  have e2 : (outsAt0 m c 2 lt2).2 = blockPay (iblk m c 0 ⟨2, lt2⟩) (outsAt0 m c 1 lt1).2 :=
    acc_mid m c ⟨2, lt2⟩ (by decide) (by decide)
  have e1 : (outsAt0 m c 1 lt1).2 = blockPay (iblk m c 0 ⟨1, lt1⟩) (outsAt0 m c 0 lt0).2 :=
    acc_mid m c ⟨1, lt1⟩ (by decide) (by decide)
  have e0 : (outsAt0 m c 0 lt0).2 = blockPay (iblk m c 0 ⟨0, lt0⟩) (zeroAcc (F := Ideal)) :=
    acc_first m c ⟨0, lt0⟩ (by decide) (by decide)
  rw [e3, blockPay_apply (iblk m c 0 ⟨3, lt3⟩) (outsAt0 m c 2 lt2).2 j,
    e2, blockPay_apply (iblk m c 0 ⟨2, lt2⟩) (outsAt0 m c 1 lt1).2 j,
    e1, blockPay_apply (iblk m c 0 ⟨1, lt1⟩) (outsAt0 m c 0 lt0).2 j,
    e0, blockPay_apply (iblk m c 0 ⟨0, lt0⟩) (zeroAcc (F := Ideal)) j, zeroAcc_apply]

/-! ## A tile of the argument array -/

/-- The printed index map of the input window: block `t` is tile `t` of the batch axis, whole on the other axes. -/
theorem idx_facts0 : ∀ t : Fin cfg0.N, win0_0.index t (0 : Fin 4) = 0 ∧ win0_0.index t (1 : Fin 4) = t.val
    ∧ win0_0.index t (2 : Fin 4) = 0 ∧ win0_0.index t (3 : Fin 4) = 0 :=
  (by decide +kernel : ∀ t : Fin grid0.N, _)

/-- The input block at point `t` read at `(k, b', f, e)` is the argument array at `(k, b' + 8 t, f, e)`. -/
theorem iblk_apply (c : Dev nD) (t : Fin cfg0.N) (k : Fin 32) (b' : Fin 8) (f : Fin 64) (e : Fin 63)
    (i : S32x32x64x63.Idx) (h0 : (i 0).val = k.val) (h1 : (i 1).val = b'.val + 8 * t.val) (h2 : (i 2).val = f.val)
    (h3 : (i 3).val = e.val) :
    iblk m c 0 t (ix4 k b' f e) = V m c main_arg0 i := by
  obtain ⟨e0, e1, e2, e3⟩ := idx_facts0 t
  show V m c main_arg0 (((cfg0.win 0).blk t).view.emb (ix4 k b' f e)) = V m c main_arg0 i
  refine congrArg _ (funext fun a => Fin.ext ?_)
  match a with
  | ⟨0, _⟩ => show win0_0.index t (0 : Fin 4) * 32 + 1 * k.val = (i 0).val; omega
  | ⟨1, _⟩ => show win0_0.index t (1 : Fin 4) * 8 + 1 * b'.val = (i 1).val; omega
  | ⟨2, _⟩ => show win0_0.index t (2 : Fin 4) * 64 + 1 * f.val = (i 2).val; omega
  | ⟨3, _⟩ => show win0_0.index t (3 : Fin 4) * 63 + 1 * e.val = (i 3).val; omega

/-- So the block's total is the total of that tile of the argument array. -/
theorem blockTotal_iblk (c : Dev nD) (s : Fin 4) (hs : s.val < cfg0.N) :
    blockTotal (iblk m c 0 ⟨s.val, hs⟩) = blockTotal (tile (V m c main_arg0) s) := by
  unfold blockTotal tile
  refine Finset.sum_congr rfl fun b' _ => Finset.sum_congr rfl fun f _ => ?_
  refine congrArg rowTotal (funext fun k => funext fun e => ?_)
  exact iblk_apply m c ⟨s.val, hs⟩ k b' f e _ rfl rfl rfl rfl

/-- The output block at the last point is the whole argument array's total. -/
theorem out_total (c : Dev nD) (j : S1x1.Idx) : (outsAt0 m c 3 lt3).1 j = arrayTotal (V m c main_arg0) := by
  rw [out_value, arrayTotal_eq_tiles]
  have b0 : blockTotal (iblk m c 0 ⟨0, lt0⟩) = blockTotal (tile (V m c main_arg0) 0) := blockTotal_iblk m c 0 lt0
  have b1 : blockTotal (iblk m c 0 ⟨1, lt1⟩) = blockTotal (tile (V m c main_arg0) 1) := blockTotal_iblk m c 1 lt1
  have b2 : blockTotal (iblk m c 0 ⟨2, lt2⟩) = blockTotal (tile (V m c main_arg0) 2) := blockTotal_iblk m c 2 lt2
  have b3 : blockTotal (iblk m c 0 ⟨3, lt3⟩) = blockTotal (tile (V m c main_arg0) 3) := blockTotal_iblk m c 3 lt3
  rw [b0, b1, b2, b3]

end Cert.KernelIdeal.Rows

end
-- ==== Proof.KernelRun.lean ====
/-
  The kernel's run, read: the output array after the region, the host lines after it, and the run re-posted
  with the result named.

  The output window has one block and is written back once, at the last grid point, with the accumulated total;
  so the one-entry array ends at the argument array's total. The host then reshapes it to a scalar and divides
  by the count.
-/
import proofs.«115086_j2963527434409_2_alg».proof.Proof.Accumulate
import Idealize.ShloMosaic.Lib.StableHlo.Run
import Idealize.ShloMosaic.Lib.Pipeline.Value

set_option maxRecDepth 16384

noncomputable section

namespace Cert.KernelIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen Cert.Pairwise

variable (m : (ℓ : Loc nD τ sig) → Buf (Elt Ideal) ℓ) (ρ : Dev nD → PrngReg)

/-- The output window's one block sits at the origin at every point. -/
theorem idx_facts1 : ∀ t : Fin cfg0.N, win0_1.index t (0 : Fin 2) = 0 ∧ win0_1.index t (1 : Fin 2) = 0 :=
  (by decide +kernel : ∀ t : Fin grid0.N, _)

/-- Every index of the one-entry array is in that block. -/
theorem mem_blk1 (t : Fin cfg0.N) (i : S1x1.Idx) : i ∈ ((cfg0.win 1).blk t).view.set := by
  show i ∈ ((View.whole main_v0).slice (win0_1.rect t)).set
  rw [View.set_slice_whole, Rect.mem_set_unit]
  obtain ⟨e0, e1⟩ := idx_facts1 t
  intro a
  match a with
  | ⟨0, _⟩ =>
    show win0_1.index t (0 : Fin 2) * 1 ≤ (i 0).val ∧ (i 0).val < win0_1.index t (0 : Fin 2) * 1 + 1
    have h : (i 0).val < 1 := (i 0).isLt
    omega
  | ⟨1, _⟩ =>
    show win0_1.index t (1 : Fin 2) * 1 ≤ (i 1).val ∧ (i 1).val < win0_1.index t (1 : Fin 2) * 1 + 1
    have h : (i 1).val < 1 := (i 1).isLt
    omega

/-- The one write-back, at the last point, carries the argument array's total. -/
theorem flushed_eq (c : Dev nD) (t : Fin cfg0.N) (hf : (cfg0.win 1).flush t = true) :
    (dats m 0 c).flushed 1 t
      = ((cfg0.win 1).blk t).view.read (Elt Ideal) (fun _ : S1x1.Idx => arrayTotal (V m c main_arg0)) := by
  have h3 : t.val % 4 = 3 := (flush0_1 t).mp hf
  have hN : t.val < 4 := lt_of_lt_of_eq t.isLt (show cfg0.N = 4 from N_0)
  obtain rfl : t = ⟨3, lt3⟩ := Fin.ext (by show t.val = 3; omega)
  show (cfg0.win 1).cut (grid0.coords ⟨3, lt3⟩) ((dats m 0 c).after 1 ⟨3, lt3⟩) = _
  rw [after0_1]
  funext j
  exact out_total m c j

/-- The output array after the run. -/
theorem final_out (c : Dev nD) :
    (dats m 0 c).arrAt 1 cfg0.N = (fun _ : S1x1.Idx => arrayTotal (V m c main_arg0)) :=
  (dats m 0 c).arrAt_eq_of_cover 1 (fun _ : S1x1.Idx => arrayTotal (V m c main_arg0))
    (fun t hf => flushed_eq m c t hf)
    (fun i => ⟨⟨3, lt3⟩, (flush0_1 ⟨3, lt3⟩).mpr rfl, mem_blk1 ⟨3, lt3⟩ i⟩)

/-- The host lines after the region: reshape to a scalar, divide by the count. -/
theorem tail_value (c : Dev nD) :
    Pipeline.afterTail₀ cfgs (dats m) 0 (V0 m) [hostOps1] c main_v2 = meanOf (V m c main_arg0) := by
  unfold Pipeline.afterTail₀
  show StableHlo.after hostOps1 _ (Proc.devRef .tc main_v2) = _
  after_results
  have hw : Pipeline.withArrays (cfgs 0).spec c (V0 m c) (fun w => (dats m 0 c).arrAt w (cfgs 0).N)
      (Proc.devRef .tc main_v0) = (fun _ : S1x1.Idx => arrayTotal (V m c main_arg0)) :=
    (Pipeline.withArrays_arr spec0 launch0.win.arr_inj c _ _ 1).trans (final_out m c)
  rw [hw]
  rfl

/-- The result buffer is none of the pipeline's arrays: the lines after the region leave it. -/
theorem v2_rest : main_v2 ∈ Pipeline.restRefs sig (cfgs 0).spec :=
  Pipeline.mem_restRefs_of main_v2 rfl (fun w => by fin_cases w <;> decide)

/-- THE KERNEL'S RUN: every weakly fair execution terminates with the result at the argument array's total over
    the count, and the argument unchanged. -/
theorem run : θ_run defs (onTc (τ := τ) (main (F := Ideal))) ⟨m, fun _ => 0, ρ⟩ (fun r => ∀ c : Dev nD,
      r.2.mem ((c.tc : Thread nD τ).loc main_v2) = meanOf (m ((c.tc : Thread nD τ).loc main_arg0))
      ∧ r.2.mem ((c.tc : Thread nD τ).loc main_arg0) = m ((c.tc : Thread nD τ).loc main_arg0)) :=
  (θ_run defs _ _).mono (fun r h c => ⟨((h c).2 main_v2 v2_rest).trans (tail_value m c),
      ((h c).1 0).trans (((dats m 0 c).arrAt_in 0 rfl _).trans ((A_eq m c 0).trans (V_main_arg0 m c)))⟩)
    (run_main m ρ)

end Cert.KernelIdeal.Rows

end
-- ==== Proof.RefValue.lean ====
/-
  The reference's result as the same number.

  The reference moves the row axis inside, merges batch and frame into one axis of 2048 positions, forms all
  32 × 32 row differences at once, sums absolute values over the features, masks the strict upper triangle,
  and sums everything. Read index by index, position `p` is batch element `p / 64` and frame `p % 64`, the entry
  `(p, i, j)` of the masked array is the pair summand of rows `(i, j)` — with the difference taken as row `i` minus
  row `j`, the other order than the kernel's, which is where the symmetry of the distance is used — and the sum
  over the merged axis is the double sum over batch elements and frames.
-/
import proofs.«115086_j2963527434409_2_alg».proof.Proof.Gen.ReferenceIdeal.Read
import proofs.«115086_j2963527434409_2_alg».proof.Proof.PairSum
import Idealize.ShloMosaic.Lib.ValueIdx
import Idealize.ShloMosaic.Lib.Affine

set_option maxRecDepth 16384

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Pairwise

/-- The triangle mask: `select (i ≥ j) false true` is `1` exactly when `i < j`. -/
theorem triu_iff : ∀ i j : Fin 32,
    (Scalar.select (IntOp.cmpi .sge (IntOp.addi (BitVec.ofNat 32 i.val) 0#32) (BitVec.ofNat 32 j.val)) (0#1 : BitVec 1) 1#1 = 1#1)
      ↔ i < j := by
  decide +kernel

/-- Batch element and frame of a merged position. -/
abbrev batchOf (p : Fin 2048) : Fin 32 := ⟨p.val / 64, by have := p.isLt; omega⟩
abbrev frameOf (p : Fin 2048) : Fin 64 := ⟨p.val % 64, Nat.mod_lt _ (by decide)⟩

/-- The re-laid array read at `(p, k, e)` is the argument at `(k, p / 64, p % 64, e)`. -/
theorem relaid_apply (x0 : (⟨S32x32x64x63, .f32⟩ : BufTy).Contents (Elt Ideal)) (p : Fin 2048) (k : Fin 32) (e : Fin 63) :
    val_main_v1 (F := Ideal) x0 (ix3 p k e) = x0 (ix4 k (batchOf p) (frameOf p) e) := by
  rw [val_main_v1_apply, val_main_v0_apply]
  refine congrArg x0 (funext fun a => Fin.ext ?_)
  have hp : p.val < 2048 := p.isLt
  have hk : k.val < 32 := k.isLt
  have he : e.val < 63 := e.isLt
  match a with
  | ⟨0, _⟩ => show ((p.val * 32 + k.val) * 63 + e.val) / 63 % 32 = k.val; omega
  | ⟨1, _⟩ => show ((p.val * 32 + k.val) * 63 + e.val) / 129024 = p.val / 64; omega
  | ⟨2, _⟩ => show ((p.val * 32 + k.val) * 63 + e.val) / 2016 % 64 = p.val % 64; omega
  | ⟨3, _⟩ => show ((p.val * 32 + k.val) * 63 + e.val) % 63 = e.val; omega

/-- The summed absolute differences at `(p, i, j)`: the distance of rows `i` and `j` at that batch element and frame. -/
theorem pdist_apply (x0 : (⟨S32x32x64x63, .f32⟩ : BufTy).Contents (Elt Ideal)) (p : Fin 2048) (i j : Fin 32) :
    val_main_v8 (F := Ideal) x0 (ix3 p i j)
      = rowDist (fun k e => x0 (ix4 k (batchOf p) (frameOf p) e)) i j := by
  rw [val_main_v8_apply, val_main_cst_apply, rowDist_comm]
  show Ideal.ofBits .f32 0x00000000#32 + _ = _
  rw [Ideal.ofBits_zero_f32, zero_add]
  unfold rowDist
  refine Finset.sum_congr rfl fun e _ => ?_
  rw [val_main_v7_apply, val_main_v6_apply, val_main_v4_apply, val_main_v5_apply, val_main_v2_apply, val_main_v3_apply]
  have hA : idx_main_v2 (idx_main_v4 (idx_main_v8 (ix3 p i j) e)) = ix3 p i e := by
    funext a; match a with | ⟨0, _⟩ => rfl | ⟨1, _⟩ => rfl | ⟨2, _⟩ => rfl
  have hB : idx_main_v3 (idx_main_v5 (idx_main_v8 (ix3 p i j) e)) = ix3 p j e := by
    funext a; match a with | ⟨0, _⟩ => rfl | ⟨1, _⟩ => rfl | ⟨2, _⟩ => rfl
  rw [hA, hB, relaid_apply, relaid_apply]
  rfl

/-- The masked array at `(p, i, j)` is the pair summand of rows `(i, j)`. -/
theorem masked_apply (x0 : (⟨S32x32x64x63, .f32⟩ : BufTy).Contents (Elt Ideal)) (p : Fin 2048) (i j : Fin 32) :
    val_main_v14 (F := Ideal) x0 (ix3 p i j)
      = pairTerm (fun k e => x0 (ix4 k (batchOf p) (frameOf p) e)) i j := by
  rw [val_main_v14_apply, val_main_v13_apply, val_main_v12_apply, pdist_apply, val_main_call1_v2_apply,
    val_main_call1_v0_apply, val_main_cst_0_apply, val_main_call1_v1_apply, val_main_v11_apply, val_main_v10_apply,
    val_main_call0_v4_apply, val_main_call0_v2_apply, val_main_call0_v0_apply, val_main_call0_v1_apply,
    val_main_call0_c_apply, val_main_call0_v3_apply, val_main_call0_v5_apply, val_main_call0_c_0_apply,
    val_main_v9_apply, val_main_c_apply]
  show Scalar.select (Scalar.select (IntOp.cmpi .sge (IntOp.addi (BitVec.ofNat 32 i.val) 0#32) (BitVec.ofNat 32 j.val)) (0#1 : BitVec 1) 1#1)
      (Ideal.exp (-(rowDist (fun k e => x0 (ix4 k (batchOf p) (frameOf p) e)) i j))) (Ideal.ofBits .f32 0x00000000#32) = _
  rw [Ideal.ofBits_zero_f32]
  unfold pairTerm
  by_cases h : i < j
  · rw [if_pos h, (triu_iff i j).mpr h, select_one]
  · rw [if_neg h, eq_zero_of_ne_one (fun hh => h ((triu_iff i j).mp hh)), select_zero]

/-- The reference's total sum is the array's total. -/
theorem total_apply (x0 : (⟨S32x32x64x63, .f32⟩ : BufTy).Contents (Elt Ideal)) (i : S_.Idx) :
    val_main_v15 (F := Ideal) x0 i = arrayTotal x0 := by
  rw [val_main_v15_apply, val_main_cst_1_apply]
  show Ideal.ofBits .f32 0x00000000#32 + _ = _
  rw [Ideal.ofBits_zero_f32, zero_add, sum_idx3]
  unfold arrayTotal
  rw [← sum_merged (fun b t => rowTotal (fun k e => x0 (ix4 k b t e)))]
  refine Finset.sum_congr rfl fun p _ => ?_
  unfold rowTotal
  refine Finset.sum_congr rfl fun i _ => Finset.sum_congr rfl fun j _ => ?_
  exact masked_apply x0 p i j

/-- The reference's result: the array's total over the count. -/
theorem result_eq (x0 : (⟨S32x32x64x63, .f32⟩ : BufTy).Contents (Elt Ideal)) :
    val_main_v16 (F := Ideal) x0 = meanOf x0 := by
  have h : val_main_v15 (F := Ideal) x0 = fun _ => arrayTotal x0 := funext fun i => total_apply x0 i
  unfold val_main_v16 meanOf
  rw [h]
  rfl

end Cert.ReferenceIdeal.RefValue

end
-- ==== Proof.lean ====
/-
  The kernel and the reference compute one number: over every batch element and frame, and every pair of rows
  `k1 < k2` of the 32, the sum of `exp (-(L1 distance of the two rows))`, divided by the number of such summands.

  The kernel walks the batch axis in four tiles; at each it runs 32 passes, pass `k1` summing over the rows `k2`
  above `k1`, and carries the running sum in a one-entry accumulator that it copies out at the last tile. The
  reference forms all row differences at once on a flattened batch-and-frame axis and masks the upper triangle.
  On the extended reals the two differ only by the order of the summation, which no sum of extended reals
  depends on, and by the order of the two rows inside the absolute difference, `|a - b| = |b - a|`, which holds
  at the infinities too; so the precondition is never opened. Both divide by the same float word.

  The three frames are the generated ones (the reference's is its generated run with the result dropped); the
  idealization rewrote nothing, so `preserves` is `True`.
-/
import proofs.«115086_j2963527434409_2_alg».proof.Defs
import proofs.«115086_j2963527434409_2_alg».proof.Proof.Gen.Kernel
import proofs.«115086_j2963527434409_2_alg».proof.Proof.Gen.Kernel.Skeleton
import proofs.«115086_j2963527434409_2_alg».proof.Proof.Gen.Kernel.Launch
import proofs.«115086_j2963527434409_2_alg».proof.Proof.Gen.Kernel.Points
import proofs.«115086_j2963527434409_2_alg».proof.Proof.Gen.Kernel.Frame
import proofs.«115086_j2963527434409_2_alg».proof.Proof.Gen.KernelIdeal
import proofs.«115086_j2963527434409_2_alg».proof.Proof.Gen.KernelIdeal.Skeleton
import proofs.«115086_j2963527434409_2_alg».proof.Proof.Gen.KernelIdeal.Launch
import proofs.«115086_j2963527434409_2_alg».proof.Proof.Gen.KernelIdeal.Points
import proofs.«115086_j2963527434409_2_alg».proof.Proof.Gen.KernelIdeal.Frame
import proofs.«115086_j2963527434409_2_alg».proof.Proof.Gen.ReferenceIdeal
import proofs.«115086_j2963527434409_2_alg».proof.Proof.Gen.Pre_finite_inputs
import proofs.«115086_j2963527434409_2_alg».proof.Proof.Gen.ReferenceIdeal.Run
import proofs.«115086_j2963527434409_2_alg».proof.Proof.Gen.ReferenceIdeal.Read
import Idealize.ShloMosaic.Adequacy
import Idealize.ShloMosaic.Init

import proofs.«115086_j2963527434409_2_alg».proof.Proof.KernelRun
import proofs.«115086_j2963527434409_2_alg».proof.Proof.RefValue

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the argument array's total over the count. -/
theorem algebraic : Cert.algebraic_KernelIdeal_ReferenceIdeal := by
  intro m ρ m' ρ' _ hagree
  refine ⟨fun c => Cert.Pairwise.meanOf (m ((c.tc : Thread Cert.KernelIdeal.nD Cert.KernelIdeal.τ).loc Cert.KernelIdeal.main_arg0)),
    Cert.KernelIdeal.Rows.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.result_eq, hagree c]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
